-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x16384 : Shape := ⟨2, ![16384, 16384]⟩
abbrev S8192 : Shape := ⟨1, ![8192]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x3 .f32) (main_arg1 : FVec F S16384x16384 .f32) (main_arg2 : FVec F S16384x3 .f32) (main_arg3 : IVec S8192 32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x3 .f32 := Host.absf main_arg2
  let main_cst_2 : FVec F S_ .f32 := constant S_ .f32 0x7F800000#32
  let main_v10 : FVec F S16384x3 .f32 := broadcastInDim S16384x3 ![] bcast_S_S16384x3 main_cst_2
  let main_v11 : IVec S16384x3 1 := cmpf .olt main_v9 main_v10
  let main_c_3 : IVec S_ 1 := constantI S_ 1 1#1
  let main_v12 : IVec S_ 1 := (fun x v => Host.reduce IntOp.andi x v reducesTo_S16384x3_S_d0_1 h_S_) main_v11 main_c_3
  let main_v13 : IVec S_ 1 := andi main_v8 main_v12
  main_v13
-- ==== Kernel.lean ====
abbrev S16384x3 : Shape := ⟨2, ![16384, 3]⟩
abbrev S16384x16384 : Shape := ⟨2, ![16384, 16384]⟩
abbrev S8192 : Shape := ⟨1, ![8192]⟩
abbrev S3x16384 : Shape := ⟨2, ![3, 16384]⟩
abbrev S256x16384 : Shape := ⟨2, ![256, 16384]⟩
abbrev S256x3 : Shape := ⟨2, ![256, 3]⟩
abbrev S256x2048 : Shape := ⟨2, ![256, 2048]⟩
abbrev S3x2048 : Shape := ⟨2, ![3, 2048]⟩
abbrev S_ : Shape := ⟨0, ![]⟩
abbrev S8192x1 : Shape := ⟨2, ![8192, 1]⟩
abbrev S8192x3 : Shape := ⟨2, ![8192, 3]⟩

abbrev nBuf : Space → Nat
  | .hbm => 28
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S16384x16384, .f32⟩
  | .hbm, ⟨2, _⟩ => ⟨S16384x3, .f32⟩
  | .hbm, ⟨3, _⟩ => ⟨S8192, .i32⟩
  | .hbm, ⟨4, _⟩ => ⟨S3x16384, .f32⟩
  | .hbm, ⟨5, _⟩ => ⟨S16384x3, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x3, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192x3, .f32⟩
  | .hbm, ⟨24, _⟩ => ⟨S8192x3, .f32⟩
  | .hbm, ⟨25, _⟩ => ⟨S8192x3, .f32⟩
  | .hbm, ⟨26, _⟩ => ⟨S_, .f32⟩
  | .hbm, ⟨27, _⟩ => ⟨S_, .f32⟩
  | .local _ .vmem, ⟨0, _⟩ => ⟨S256x16384, .f32⟩
  | .local _ .vmem, ⟨1, _⟩ => ⟨S256x16384, .f32⟩
  | .local _ .vmem, ⟨2, _⟩ => ⟨S3x16384, .f32⟩
  | .local _ .vmem, ⟨3, _⟩ => ⟨S256x3, .f32⟩
  | .local _ .vmem, ⟨4, _⟩ => ⟨S256x3, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 2 → Nat :=
  let c0 : Index := 0#32
  let c2048_i32 : BitVec 32 := 2048#32
  let v1 : BitVec 32 := Scalar.muli c0_i32 c2048_i32
  let v2 : BitVec 32 := v1
  let v3 : Index := Scalar.indexCast v2
  ![0, v3.toNat]
def k0_off2 (c0_i32 : BitVec 32) : Fin 2 → Nat :=
  let c0_0 : Index := 0#32
  let c2048_i32 : BitVec 32 := 2048#32
  let v1 : BitVec 32 := Scalar.muli c0_i32 c2048_i32
  let v2 : BitVec 32 := v1
  let v6 : Index := Scalar.indexCast v2
  ![0, v6.toNat]
def k0_mult2 : BitVec 32 :=
  let c1_i32 : BitVec 32 := 1#32
  let c2048_i32_2 : BitVec 32 := 2048#32
  let v12 : BitVec 32 := Scalar.muli c1_i32 c2048_i32_2
  v12
def k0_mult3 : BitVec 32 :=
  let c2_i32 : BitVec 32 := 2#32
  let c2048_i32_6 : BitVec 32 := 2048#32
  let v23 : BitVec 32 := Scalar.muli c2_i32 c2048_i32_6
  v23
def k0_mult4 : BitVec 32 :=
  let c3_i32 : BitVec 32 := 3#32
  let c2048_i32_10 : BitVec 32 := 2048#32
  let v34 : BitVec 32 := Scalar.muli c3_i32 c2048_i32_10
  v34
def k0_mult5 : BitVec 32 :=
  let c4_i32 : BitVec 32 := 4#32
  let c2048_i32_14 : BitVec 32 := 2048#32
  let v45 : BitVec 32 := Scalar.muli c4_i32 c2048_i32_14
  v45
def k0_mult6 : BitVec 32 :=
  let c5_i32 : BitVec 32 := 5#32
  let c2048_i32_18 : BitVec 32 := 2048#32
  let v56 : BitVec 32 := Scalar.muli c5_i32 c2048_i32_18
  v56
def k0_mult7 : BitVec 32 :=
  let c6_i32 : BitVec 32 := 6#32
  let c2048_i32_22 : BitVec 32 := 2048#32
  let v67 : BitVec 32 := Scalar.muli c6_i32 c2048_i32_22
  v67
def k0_mult8 : BitVec 32 :=
  let c7_i32 : BitVec 32 := 7#32
  let c2048_i32_26 : BitVec 32 := 2048#32
  let v78 : BitVec 32 := Scalar.muli c7_i32 c2048_i32_26
  v78
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x3_S3x16384_1_0 : S16384x3.Transposes [1, 0] S3x16384
  h_S256x2048 : 0 < S256x2048.numel
  bitsLt_bf16_f32 : FTy.bits .bf16 < FTy.bits .f32
  h_S3x2048 : 0 < S3x2048.numel
  shapeCasts_S3x2048_S3x2048 : S3x2048.ShapeCasts S3x2048
  inb_S256x3_S256x3_0_0 : ∀ a, (![0, 0] : Fin 2 → Nat) a + S256x3.size a ≤ S256x3.size a
  h_S256x3 : 0 < S256x3.numel
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S_d0_1 : S8192x3.ReducesTo [0, 1] S_
  h_S_ : 0 < S_.numel
  dot_S256x2048_S3x2048_S256x3_1_1_0_0_n_n_wf : DotDims.WF S256x2048 S3x2048 S256x3 [1] [1] [0] [0] [] []
  gather_S16384x3_S8192x1_S8192x3_1_0_n_n_0_1_13_wf : GatherDims.WF S16384x3 S8192x1 S8192x3 [1] [0] [] [0] [] 1 ![1, 3]
  hrank0 : 0 < grid0.rank
  k0_mult1_dvd : 2048 ∣ k0_mult1.toNat
  k0_off1_inb : ∀ (r : Fin 8), ∀ a, (k0_off1 (BitVec.ofNat 32 r.val)) a + S256x2048.size a ≤ S256x16384.size a
  k0_off2_inb : ∀ (r : Fin 8), ∀ a, (k0_off2 (BitVec.ofNat 32 r.val)) a + S3x2048.size a ≤ S3x16384.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3.size a ≤ S16384x3.size a
  hwx0_2 : ∀ i : grid0.Coords, EltTy.bits .f32 = 32 ∨ (Rect.block (s := S16384x3) S256x3.size (cc0_transform_2 i) (hinb0_2 i)).WholeWords (EltTy.packing .f32)

variable [Facts₀]

def dot_S256x2048_S3x2048_S256x3_1_1_0_0_n_n : DotDims S256x2048 S3x2048 S256x3 where
  lhsContracting := [1]
  rhsContracting := [1]
  lhsNonContracting := [0]
  rhsNonContracting := [0]
  lhsBatch := []
  rhsBatch := []
  wf := dot_S256x2048_S3x2048_S256x3_1_1_0_0_n_n_wf
def gather_S16384x3_S8192x1_S8192x3_1_0_n_n_0_1_13 : GatherDims S16384x3 S8192x1 S8192x3 where
  offsetDims := [1]
  collapsedSliceDims := [0]
  operandBatchingDims := []
  startIndicesBatchingDims := []
  startIndexMap := [0]
  indexVectorDim := 1
  sliceSizes := ![1, 3]
  wf := gather_S16384x3_S8192x1_S8192x3_1_0_n_n_0_1_13_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S16384x16384 : Shape := ⟨2, ![16384, 16384]⟩
abbrev S8192 : Shape := ⟨1, ![8192]⟩
abbrev S_ : Shape := ⟨0, ![]⟩
abbrev S8192x1 : Shape := ⟨2, ![8192, 1]⟩
abbrev S8192x3 : Shape := ⟨2, ![8192, 3]⟩

abbrev nBuf : Space → Nat
  | .hbm => 27
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x16384, .f32⟩
  | .hbm, ⟨2, _⟩ => ⟨S16384x3, .f32⟩
  | .hbm, ⟨3, _⟩ => ⟨S8192, .i32⟩
  | .hbm, ⟨4, _⟩ => ⟨S16384x3, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x3, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x3, .f32⟩
  | .hbm, ⟨23, _⟩ => ⟨S8192x3, .f32⟩
  | .hbm, ⟨24, _⟩ => ⟨S8192x3, .f32⟩
  | .hbm, ⟨25, _⟩ => ⟨S_, .f32⟩
  | .hbm, ⟨26, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S_d0_1 : S8192x3.ReducesTo [0, 1] S_
  h_S_ : 0 < S_.numel
  dot_S16384x16384_S16384x3_S16384x3_1_0_0_1_n_n_wf : DotDims.WF S16384x16384 S16384x3 S16384x3 [1] [0] [0] [1] [] []
  gather_S16384x3_S8192x1_S8192x3_1_0_n_n_0_1_13_wf : GatherDims.WF S16384x3 S8192x1 S8192x3 [1] [0] [] [0] [] 1 ![1, 3]

variable [Facts₀]

def dot_S16384x16384_S16384x3_S16384x3_1_0_0_1_n_n : DotDims S16384x16384 S16384x3 S16384x3 where
  lhsContracting := [1]
  rhsContracting := [0]
  lhsNonContracting := [0]
  rhsNonContracting := [1]
  lhsBatch := []
  rhsBatch := []
  wf := dot_S16384x16384_S16384x3_S16384x3_1_0_0_1_n_n_wf
def gather_S16384x3_S8192x1_S8192x3_1_0_n_n_0_1_13 : GatherDims S16384x3 S8192x1 S8192x3 where
  offsetDims := [1]
  collapsedSliceDims := [0]
  operandBatchingDims := []
  startIndicesBatchingDims := []
  startIndexMap := [0]
  indexVectorDim := 1
  sliceSizes := ![1, 3]
  wf := gather_S16384x3_S8192x1_S8192x3_1_0_n_n_0_1_13_wf

class Facts : Prop extends Facts₀ where

variable [Facts]
-- ==== Proof.BlockPiece.lean ====
/-
  What one grid point leaves in the output's staging buffer, for any float values.

  The kernel body is a loop over the eight 2048-column chunks of the contraction axis, unrolled: chunk `c` loads
  columns `2048 c … 2048 c + 2047` of the [256, 16384] row tile of the matrix and of the [3, 16384] transposed
  vector block, rounds both to bf16, contracts them over the 2048 columns into a zero accumulator, and adds that
  [256, 3] product onto a running sum that starts at the zero block. One store then writes the running sum over the
  whole [256, 3] output block. So the block the point leaves is
      ((((((((0 + P₀) + P₁) + P₂) + P₃) + P₄) + P₅) + P₆) + P₇),   P_c = chunk c's product,
  and this module says exactly that, with the sixteen loads named as chunks of the two input blocks.
-/
import proofs.«163676_j62929860821305_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BlockValue

open Cert.KernelIdeal Cert.KernelIdeal.Gen

variable {F : FTy → Type} [FloatOps F]

theorem hz : (![0, 0] : Fin 2 → Nat) = fun _ => 0 := funext fun a => by fin_cases a <;> rfl

/-- One chunk's product: a [256, 2048] chunk of the matrix's row tile and a [3, 2048] chunk of the transposed
    vector block, both rounded to bf16, contracted over their 2048 columns into a zero accumulator. -/
def contrib (lc : Vec F S256x2048 .f32) (vc : Vec F S3x2048 .f32) : FVec F S256x3 .f32 :=
  matmul dot_S256x2048_S3x2048_S256x3_1_1_0_0_n_n none (truncf .bf16 lc bitsLt_bf16_f32)
    (truncf .bf16 (shapeCast S3x2048 vc shapeCasts_S3x2048_S3x2048) bitsLt_bf16_f32) (constant S256x3 .f32 0x00000000#32)

/-- The eight products added, first to last, onto the zero block. -/
def acc8 (l0 : Vec F S256x2048 .f32) (v0 : Vec F S3x2048 .f32) (l1 : Vec F S256x2048 .f32) (v1 : Vec F S3x2048 .f32)
    (l2 : Vec F S256x2048 .f32) (v2 : Vec F S3x2048 .f32) (l3 : Vec F S256x2048 .f32) (v3 : Vec F S3x2048 .f32)
    (l4 : Vec F S256x2048 .f32) (v4 : Vec F S3x2048 .f32) (l5 : Vec F S256x2048 .f32) (v5 : Vec F S3x2048 .f32)
    (l6 : Vec F S256x2048 .f32) (v6 : Vec F S3x2048 .f32) (l7 : Vec F S256x2048 .f32) (v7 : Vec F S3x2048 .f32) :
    FVec F S256x3 .f32 :=
  addf (addf (addf (addf (addf (addf (addf (addf (broadcast S256x3 (Scalar.ofBits .f32 0x00000000#32))
    (contrib l0 v0)) (contrib l1 v1)) (contrib l2 v2)) (contrib l3 v3)) (contrib l4 v4)) (contrib l5 v5))
    (contrib l6 v6)) (contrib l7 v7)

/-- The body's arithmetic is stated as four nested terms (chunks 0–2; chunk 3's rounded matrix chunk; chunks
    3–6; chunk 7); composed, they are that running sum. -/
theorem pays_eq (l0 : Vec F S256x2048 .f32) (v0 : Vec F S3x2048 .f32) (l1 : Vec F S256x2048 .f32) (v1 : Vec F S3x2048 .f32)
    (l2 : Vec F S256x2048 .f32) (v2 : Vec F S3x2048 .f32) (l3 : Vec F S256x2048 .f32) (v3 : Vec F S3x2048 .f32)
    (l4 : Vec F S256x2048 .f32) (v4 : Vec F S3x2048 .f32) (l5 : Vec F S256x2048 .f32) (v5 : Vec F S3x2048 .f32)
    (l6 : Vec F S256x2048 .f32) (v6 : Vec F S3x2048 .f32) (l7 : Vec F S256x2048 .f32) (v7 : Vec F S3x2048 .f32) :
    k0_pay1 (k0_pay4 (k0_pay2 l0 v0 l1 v1 l2 v2) (k0_pay3 l3) v3 l4 v4 l5 v5 l6 v6) l7 v7
      = acc8 l0 v0 l1 v1 l2 v2 l3 v3 l4 v4 l5 v5 l6 v6 l7 v7 := rfl

/-- Columns `o … o + 2047` of a [256, 16384] block. -/
def chunkL (x0 : Vec F S256x16384 .f32) (o : Nat)
    (h : ∀ a, (![0, o] : Fin 2 → Nat) a + (![256, 2048] : Fin 2 → Nat) a ≤ S256x16384.size a) : Vec F S256x2048 .f32 :=
  View.ld x0 (Rect.unit ![0, o] ![256, 2048] h)

/-- Columns `o … o + 2047` of a [3, 16384] block. -/
def chunkR (x1 : Vec F S3x16384 .f32) (o : Nat)
    (h : ∀ a, (![0, o] : Fin 2 → Nat) a + (![3, 2048] : Fin 2 → Nat) a ≤ S3x16384.size a) : Vec F S3x2048 .f32 :=
  View.ld x1 (Rect.unit ![0, o] ![3, 2048] h)

theorem inbL (o : Nat) (ho : o + 2048 ≤ 16384) :
    ∀ a, (![0, o] : Fin 2 → Nat) a + (![256, 2048] : Fin 2 → Nat) a ≤ S256x16384.size a :=
  Rect.inb₂ (Nat.le_refl _) ho

theorem inbR (o : Nat) (ho : o + 2048 ≤ 16384) :
    ∀ a, (![0, o] : Fin 2 → Nat) a + (![3, 2048] : Fin 2 → Nat) a ≤ S3x16384.size a :=
  Rect.inb₂ (Nat.le_refl _) ho

/-- What the body leaves in the output's staging buffer, on any staging memrefs, from input blocks `x0` (the
    matrix's row tile) and `x1` (the transposed vector): its one covering store's payload, whose sixteen loads are
    the eight column chunks of each block. -/
theorem piece (c : Dev nD) (i : grid0.Coords) (a1 : Memref sig .tc .vmem S256x16384 .f32) (h1 : a1.IsWhole)
    (a2 : Memref sig .tc .vmem S3x16384 .f32) (h2 : a2.IsWhole) (a3 : Memref sig .tc .vmem S256x3 .f32) (h3 : a3.IsWhole)
    (x0 : Vec F S256x16384 .f32) (x1 : Vec F S3x16384 .f32) :
    out0_A_2 c i a1 h1 a2 h2 a3 h3 x0 x1
      = acc8 (chunkL x0 0 (inbL 0 (by decide))) (chunkR x1 0 (inbR 0 (by decide)))
          (chunkL x0 2048 (inbL 2048 (by decide))) (chunkR x1 2048 (inbR 2048 (by decide)))
          (chunkL x0 4096 (inbL 4096 (by decide))) (chunkR x1 4096 (inbR 4096 (by decide)))
          (chunkL x0 6144 (inbL 6144 (by decide))) (chunkR x1 6144 (inbR 6144 (by decide)))
          (chunkL x0 8192 (inbL 8192 (by decide))) (chunkR x1 8192 (inbR 8192 (by decide)))
          (chunkL x0 10240 (inbL 10240 (by decide))) (chunkR x1 10240 (inbR 10240 (by decide)))
          (chunkL x0 12288 (inbL 12288 (by decide))) (chunkR x1 12288 (inbR 12288 (by decide)))
          (chunkL x0 14336 (inbL 14336 (by decide))) (chunkR x1 14336 (inbR 14336 (by decide))) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  exact pays_eq ..

end Cert.KernelIdeal.BlockValue

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.BlockValue.lean ====
/-
  The block one grid point leaves, on the extended reals, entry by entry.

  At the ideal values rounding to bf16 is the identity and a matrix product into a zero accumulator is the plain
  sum of products, so chunk `c`'s product at row `r`, column `j` is
      Σ_{k < 2048}  X (r, 2048 c + k) · Y (j, 2048 c + k),
  with `X` the [256, 16384] row tile of the matrix and `Y` the [3, 16384] transposed vector block. The body adds
  the eight of them onto a zero, one after the other; the eight ranges `2048 c … 2048 c + 2047` are the whole range
  `0 … 16383` cut into chunks, so the block's entry is the whole contraction
      Σ_{k < 16384}  X (r, k) · Y (j, k).
  Regrouping a finite sum needs only that addition is commutative and associative: nothing here has to be finite.
-/
import proofs.«163676_j62929860821305_2_alg».proof.Proof.BlockPiece
import proofs.«163676_j62929860821305_2_alg».proof.Proof.LibChunkSum
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.BlockValue

open Cert.KernelIdeal Cert.KernelIdeal.Gen

/-- A chunk of the matrix's row tile read at (row, column): the tile at the chunk's offset plus the column. -/
theorem chunkL_apply (x0 : Vec Ideal S256x16384 .f32) (o : Nat) (ho : o + 2048 ≤ 16384)
    (h : ∀ a, (![0, o] : Fin 2 → Nat) a + (![256, 2048] : Fin 2 → Nat) a ≤ S256x16384.size a)
    (r : Fin 256) (k : Fin 2048) :
    View.ld x0 (Rect.unit ![0, o] ![256, 2048] h) (ix2 r k) = x0 (ix2 r ⟨o + k.val, by have := k.isLt; omega⟩) := by
  show x0 ((Rect.unit (s := S256x16384) ![0, o] ![256, 2048] h).emb (ix2 r k)) = _
  refine congrArg x0 (funext fun a => Fin.ext ?_)
  match a with
  | ⟨0, _⟩ => show 0 + 1 * r.val = r.val; omega
  | ⟨1, _⟩ => show o + 1 * k.val = o + k.val; omega

/-- The same for a chunk of the transposed vector block. -/
theorem chunkR_apply (x1 : Vec Ideal S3x16384 .f32) (o : Nat) (ho : o + 2048 ≤ 16384)
    (h : ∀ a, (![0, o] : Fin 2 → Nat) a + (![3, 2048] : Fin 2 → Nat) a ≤ S3x16384.size a)
    (j : Fin 3) (k : Fin 2048) :
    View.ld x1 (Rect.unit ![0, o] ![3, 2048] h) (ix2 j k) = x1 (ix2 j ⟨o + k.val, by have := k.isLt; omega⟩) := by
  show x1 ((Rect.unit (s := S3x16384) ![0, o] ![3, 2048] h).emb (ix2 j k)) = _
  refine congrArg x1 (funext fun a => Fin.ext ?_)
  match a with
  | ⟨0, _⟩ => show 0 + 1 * j.val = j.val; omega
  | ⟨1, _⟩ => show o + 1 * k.val = o + k.val; omega

/-! ### The product's operand indices, coordinate by coordinate -/

theorem lhs_0 (i : S256x3.Idx) (q : dot_S256x2048_S3x2048_S256x3_1_1_0_0_n_n.contr.Idx) :
    (dot_S256x2048_S3x2048_S256x3_1_1_0_0_n_n.lhsIdx i q 0).val = (i 0).val := by
  unfold DotDims.lhsIdx
  rw [dif_neg (show ¬(0 : Fin S256x2048.rank) ∈ dot_S256x2048_S3x2048_S256x3_1_1_0_0_n_n.lhsBatch by decide),
    dif_pos (show (0 : Fin S256x2048.rank) ∈ dot_S256x2048_S3x2048_S256x3_1_1_0_0_n_n.lhsNonContracting by decide)]
  rfl
theorem lhs_1 (i : S256x3.Idx) (q : dot_S256x2048_S3x2048_S256x3_1_1_0_0_n_n.contr.Idx) :
    (dot_S256x2048_S3x2048_S256x3_1_1_0_0_n_n.lhsIdx i q 1).val = (q ⟨0, by decide⟩).val :=
  dot_S256x2048_S3x2048_S256x3_1_1_0_0_n_n.lhsIdx_val_of_single rfl i q
theorem rhs_0 (i : S256x3.Idx) (q : dot_S256x2048_S3x2048_S256x3_1_1_0_0_n_n.contr.Idx) :
    (dot_S256x2048_S3x2048_S256x3_1_1_0_0_n_n.rhsIdx i q 0).val = (i 1).val := by
  unfold DotDims.rhsIdx
  rw [dif_neg (show ¬(0 : Fin S3x2048.rank) ∈ dot_S256x2048_S3x2048_S256x3_1_1_0_0_n_n.rhsBatch by decide),
    dif_pos (show (0 : Fin S3x2048.rank) ∈ dot_S256x2048_S3x2048_S256x3_1_1_0_0_n_n.rhsNonContracting by decide)]
  rfl
theorem rhs_1 (i : S256x3.Idx) (q : dot_S256x2048_S3x2048_S256x3_1_1_0_0_n_n.contr.Idx) :
    (dot_S256x2048_S3x2048_S256x3_1_1_0_0_n_n.rhsIdx i q 1).val = (q ⟨0, by decide⟩).val :=
  dot_S256x2048_S3x2048_S256x3_1_1_0_0_n_n.rhsIdx_val_of_single rfl i q

/-- One chunk's product at (row `r`, column `j`), at the ideal values: the sum over the chunk's 2048 columns of
    the matrix chunk's row `r` times the vector chunk's row `j`. -/
theorem contrib_apply (lc : Vec Ideal S256x2048 .f32) (vc : Vec Ideal S3x2048 .f32) (r : Fin 256) (j : Fin 3) :
    contrib (F := Ideal) lc vc (ix2 r j) = ∑ k : Fin 2048, lc (ix2 r k) * vc (ix2 j k) := by
  unfold contrib
  simp only [matmul]
  rw [Ideal.matmul_constant_zero_apply,
    ← Equiv.sum_comp (ValueIdx.contrEquiv1 dot_S256x2048_S3x2048_S256x3_1_1_0_0_n_n 2048 rfl rfl).symm]
  refine Finset.sum_congr rfl fun k _ => ?_
  have hk := ValueIdx.contrEquiv1_symm_val dot_S256x2048_S3x2048_S256x3_1_1_0_0_n_n 2048 rfl rfl k
  have el : dot_S256x2048_S3x2048_S256x3_1_1_0_0_n_n.lhsIdx (ix2 r j)
      ((ValueIdx.contrEquiv1 dot_S256x2048_S3x2048_S256x3_1_1_0_0_n_n 2048 rfl rfl).symm k) = ix2 r k :=
    funext fun a => Fin.ext (by
      match a with
      | ⟨0, _⟩ => exact lhs_0 _ _
      | ⟨1, _⟩ => exact (lhs_1 _ _).trans hk)
  have er : dot_S256x2048_S3x2048_S256x3_1_1_0_0_n_n.rhsIdx (ix2 r j)
      ((ValueIdx.contrEquiv1 dot_S256x2048_S3x2048_S256x3_1_1_0_0_n_n 2048 rfl rfl).symm k) = ix2 j k :=
    funext fun a => Fin.ext (by
      match a with
      | ⟨0, _⟩ => exact rhs_0 _ _
      | ⟨1, _⟩ => exact (rhs_1 _ _).trans hk)
  rw [el, er, shapeCast_self]
  rfl

/-- The block one point leaves, at (row `r`, column `j`), at the ideal values: the contraction over all 16384
    columns of the matrix tile's row `r` with the transposed vector block's row `j`. -/
theorem out_apply (c : Dev nD) (i : grid0.Coords) (a1 : Memref sig .tc .vmem S256x16384 .f32) (h1 : a1.IsWhole)
    (a2 : Memref sig .tc .vmem S3x16384 .f32) (h2 : a2.IsWhole) (a3 : Memref sig .tc .vmem S256x3 .f32) (h3 : a3.IsWhole)
    (x0 : Vec Ideal S256x16384 .f32) (x1 : Vec Ideal S3x16384 .f32) (r : Fin 256) (j : Fin 3) :
    out0_A_2 (F := Ideal) c i a1 h1 a2 h2 a3 h3 x0 x1 (ix2 r j) = ∑ k : Fin 16384, x0 (ix2 r k) * x1 (ix2 j k) := by
  rw [piece]
  unfold acc8
  simp only [addf_apply, broadcast_apply, contrib_apply, chunkL, chunkR,
    chunkL_apply x0 0 (by decide), chunkL_apply x0 2048 (by decide), chunkL_apply x0 4096 (by decide),
    chunkL_apply x0 6144 (by decide), chunkL_apply x0 8192 (by decide), chunkL_apply x0 10240 (by decide),
    chunkL_apply x0 12288 (by decide), chunkL_apply x0 14336 (by decide),
    chunkR_apply x1 0 (by decide), chunkR_apply x1 2048 (by decide), chunkR_apply x1 4096 (by decide),
    chunkR_apply x1 6144 (by decide), chunkR_apply x1 8192 (by decide), chunkR_apply x1 10240 (by decide),
    chunkR_apply x1 12288 (by decide), chunkR_apply x1 14336 (by decide)]
  rw [Ideal.ofBits_def, Ideal.ofBits_zero_f32]
  exact ChunkSum.fold8_chunks (m := 2048) (N := 16384) rfl (fun k => x0 (ix2 r k) * x1 (ix2 j k))

end Cert.KernelIdeal.BlockValue

end
-- ==== Proof.ArrayValue.lean ====
/-
  The kernel's output array after the run, on the extended reals.

  The grid has 64 points. Point `t` is handed rows `256 t … 256 t + 255` of the matrix `A` (all 16384 columns), the
  whole transposed vector `B` ([3, 16384], the same block at every point), and writes back rows
  `256 t … 256 t + 255` of the [16384, 3] result. By the block's value, row `256 t + r`, column `j` of what it
  writes is  Σ_k A (256 t + r, k) · B (j, k): the point's block of ONE function of the whole arrays,
      P (i) = Σ_{k < 16384} A (i₀, k) · B (i₁, k).
  The 64 row ranges tile the 16384 rows (row `i₀` is in point `i₀ / 256`'s range), so the array ends holding `P`.
-/
import proofs.«163676_j62929860821305_2_alg».proof.Proof.BlockValue

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.BlockValue

variable (m : (ℓ : Loc nD τ sig) → Buf (Elt Ideal) ℓ) (ρ : Dev nD → PrngReg)

/-- The matrix times the vector, the vector given transposed: entry (i₀, i₁) is the contraction of the matrix's
    row i₀ with the transposed vector's row i₁. -/
def prodT (A : Vec Ideal S16384x16384 .f32) (B : Vec Ideal S3x16384 .f32) : Vec Ideal S16384x3 .f32 :=
  fun i => ∑ k : Fin 16384, A (ix2 (i 0) k) * B (ix2 (i 1) k)

/-- The three index maps, decided over the 64 points: the matrix's and the result's block index is (t, 0), the
    transposed vector's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point, over plain arrays: if the two input blocks are the arrays `A`, `B` read through placements `e0`,
    `e1`, and these agree with the output block's placement `e2` — the matrix block's row is the output's row, its
    column the contraction index; the vector block's row is the output's column — then the block's contraction at
    (r, j) is the product of the arrays at the output block's index. -/
theorem point_eq (A : Vec Ideal S16384x16384 .f32) (B : Vec Ideal S3x16384 .f32)
    (x0 : Vec Ideal S256x16384 .f32) (x1 : Vec Ideal S3x16384 .f32)
    (e0 : S256x16384.Idx → S16384x16384.Idx) (e1 : S3x16384.Idx → S3x16384.Idx) (e2 : S256x3.Idx → S16384x3.Idx)
    (hx0 : ∀ y, x0 y = A (e0 y)) (hx1 : ∀ y, x1 y = B (e1 y)) (r : Fin 256) (j : Fin 3)
    (h0 : ∀ k : Fin 16384, e0 (ix2 r k) = ix2 (e2 (ix2 r j) 0) k)
    (h1 : ∀ k : Fin 16384, e1 (ix2 j k) = ix2 (e2 (ix2 r j) 1) k) :
    ∑ k : Fin 16384, x0 (ix2 r k) * x1 (ix2 j k) = prodT A B (e2 (ix2 r j)) := by
  unfold prodT
  refine Finset.sum_congr rfl fun k _ => ?_
  rw [hx0, hx1, h0, h1]
  rfl

/-- What point `t` writes back is block `t` of the product of the arrays as the region finds them. -/
theorem flushed_eq (c : Dev nD) (t : Fin cfg0.N) :
    (dats m 0 c).flushed 2 t
      = ((cfg0.win 2).blk t).view.read (Elt Ideal) (prodT (V m c main_arg1) (V m c main_v0)) := by
  show (cfg0.win 2).cut (grid0.coords t) ((dats m 0 c).after 2 t) = _
  rw [after0_2]
  unfold outsAt0
  obtain ⟨e00, e01, e10, e11, e20, e21⟩ := idx_facts t
  funext y
  obtain ⟨r, j, rfl⟩ : ∃ (r : Fin 256) (j : Fin 3), y = ix2 r j := ⟨y 0, y 1, eq_ix2 y⟩
  refine (out_apply c _ _ _ _ _ _ _ (iblk m c 0 t) (iblk m c 1 t) r j).trans ?_
  have hx0 : ∀ y : S256x16384.Idx, (iblk m c 0 t : Vec Ideal S256x16384 .f32) y
      = (V m c main_arg1 : Vec Ideal S16384x16384 .f32) (((cfg0.win 0).blk t).view.emb y) := fun _ => rfl
  have hx1 : ∀ y : S3x16384.Idx, (iblk m c 1 t : Vec Ideal S3x16384 .f32) y
      = (V m c main_v0 : Vec Ideal S3x16384 .f32) (((cfg0.win 1).blk t).view.emb y) := fun _ => rfl
  have h0 : ∀ k : Fin 16384, ((cfg0.win 0).blk t).view.emb (ix2 r k)
      = (ix2 ((((cfg0.win 2).blk t).view.emb (ix2 r j)) 0) k : S16384x16384.Idx) := fun k =>
    funext fun a => Fin.ext (by
      match a with
      | ⟨0, _⟩ => show win0_0.index t (0 : Fin 2) * 256 + 1 * r.val = win0_2.index t (0 : Fin 2) * 256 + 1 * r.val; omega
      | ⟨1, _⟩ => show win0_0.index t (1 : Fin 2) * 16384 + 1 * k.val = k.val; omega)
  have h1 : ∀ k : Fin 16384, ((cfg0.win 1).blk t).view.emb (ix2 j k)
      = (ix2 ((((cfg0.win 2).blk t).view.emb (ix2 r j)) 1) k : S3x16384.Idx) := fun k =>
    funext fun a => Fin.ext (by
      match a with
      | ⟨0, _⟩ => show win0_1.index t (0 : Fin 2) * 3 + 1 * j.val = win0_2.index t (1 : Fin 2) * 3 + 1 * j.val; omega
      | ⟨1, _⟩ => show win0_1.index t (1 : Fin 2) * 16384 + 1 * k.val = k.val; omega)
  have key := point_eq (V m c main_arg1) (V m c main_v0) (iblk m c 0 t) (iblk m c 1 t)
    (fun y => ((cfg0.win 0).blk t).view.emb y) (fun y => ((cfg0.win 1).blk t).view.emb y)
    (fun y => ((cfg0.win 2).blk t).view.emb y) hx0 hx1 r j h0 h1
  refine key.trans ?_
  rw [View.read_apply]
  exact (cast_eq _ _).symm

/-- An index of the result array is in point `t`'s block iff each coordinate is in the block's range on its axis. -/
theorem mem_blk (t : Fin cfg0.N) (i : S16384x3.Idx) :
    i ∈ ((cfg0.win 2).blk t).view.set ↔ ∀ a : Fin 2, win0_2.index t a * S256x3.size a ≤ (i a).val
      ∧ (i a).val < win0_2.index t a * S256x3.size a + S256x3.size a := by
  show i ∈ ((View.whole main_v1).slice (win0_2.rect t)).set ↔ _
  rw [View.set_slice_whole, Rect.mem_set_unit]
  exact Iff.rfl

/-- Every index of the result array is in some point's block: row `i₀` is in point `i₀ / 256`'s. -/
theorem cover (i : S16384x3.Idx) :
    ∃ t : Fin cfg0.N, (cfg0.win 2).flush t = true ∧ i ∈ ((cfg0.win 2).blk t).view.set := by
  have hN : cfg0.N = 64 := N_0
  have hi0 : (i 0).val < 16384 := (i 0).isLt
  have hi1 : (i 1).val < 3 := (i 1).isLt
  have ht : (i 0).val / 256 < cfg0.N := by rw [hN]; omega
  obtain ⟨-, -, -, -, e20, e21⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e20]
    show (i 0).val / 256 * 256 ≤ (i 0).val ∧ (i 0).val < (i 0).val / 256 * 256 + 256
    omega
  | ⟨1, _⟩ =>
    show win0_2.index ⟨(i 0).val / 256, ht⟩ (1 : Fin 2) * 3 ≤ (i 1).val
      ∧ (i 1).val < win0_2.index ⟨(i 0).val / 256, ht⟩ (1 : Fin 2) * 3 + 3
    omega

/-- The result array after the run is the product of the arrays as the region finds them. -/
theorem final (c : Dev nD) : (dats m 0 c).arrAt 2 cfg0.N = prodT (V m c main_arg1) (V m c main_v0) :=
  (dats m 0 c).arrAt_eq_of_cover 2 _ (fun t _ => flushed_eq m c t) cover

end Cert.KernelIdeal.ArrayValue

end
-- ==== Proof.MatVecSpec.lean ====
/-
  The specification both programs meet: the product of a [16384, 16384] matrix `A` with a [16384, 3] array `X`,
      (A X) (i₀, i₁) = Σ_{k < 16384} A (i₀, k) · X (k, i₁),
  on the extended reals, as one function of the two arrays. It names no program. Both the kernel's result array and
  the reference's `dot_general` are this function of the arguments; everything either program does afterwards
  (gathering rows by the index vector, subtracting, squaring, summing) is the same operations applied to it.
-/
import Idealize.ShloMosaic.Lib.ValueIdx
import Idealize.ShloMosaic.PureOps.Ideal

noncomputable section

open Idealize.ShloMosaic Idealize.ShloMosaic.ValueIdx

namespace MatVecSpec

/-- The matrix's shape and the vector array's (also the result's) shape. -/
abbrev SA : Shape := ⟨2, ![16384, 16384]⟩
abbrev SX : Shape := ⟨2, ![16384, 3]⟩

/-- The product, entry by entry. -/
def prod (A : Vec Ideal SA .f32) (X : Vec Ideal SX .f32) : Vec Ideal SX .f32 :=
  fun i => ∑ k : Fin 16384, A (ix2 (i 0) k) * X (ix2 k (i 1))

end MatVecSpec

end
-- ==== Proof.KernelRun.lean ====
/-
  The idealized kernel's run, read as a value: its result is the tail of operations applied to the product of the
  argument arrays.

  Around the grid the program does three things on the host. BEFORE: it transposes the [16384, 3] vector array `X`
  to `B` = Xᵀ, [3, 16384], so `B (j, k) = X (k, j)`; the grid then leaves the result array at
  Σ_k A (i₀, k) · B (i₁, k) = Σ_k A (i₀, k) · X (k, i₁) — the product `A X`. AFTER: it wraps the negative entries of
  the index vector by adding 16384, gathers those rows of the product and of the third argument, subtracts,
  squares, and sums all entries onto a zero. That tail is ONE definition here, `tail`, a function of the product,
  the third argument and the index vector; it is never opened.
-/
import proofs.«163676_j62929860821305_2_alg».proof.Proof.ArrayValue
import proofs.«163676_j62929860821305_2_alg».proof.Proof.MatVecSpec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.ArrayValue

variable (m : (ℓ : Loc nD τ sig) → Buf (Elt Ideal) ℓ) (ρ : Dev nD → PrngReg)

/-- The index vector with its negative entries wrapped (`i < 0 ? i + 16384 : i`), as a [8192, 1] column of row
    numbers. -/
def rows (M : (⟨S8192, .i32⟩ : BufTy).Contents (Elt Ideal)) : (⟨S8192x1, .i32⟩ : BufTy).Contents (Elt Ideal) :=
  broadcastInDim S8192x1 ![0] bcast_S8192_S8192x1_0
    (select (cmpi .slt M (broadcastInDim S8192 ![] bcast_S_S8192 (constantI S_ 32 0#32)))
      (addi M (broadcastInDim S8192 ![] bcast_S_S8192 (constantI S_ 32 16384#32))) M)

/-- Everything after the product `P`: gather the indexed rows of `P` and of `D`, subtract, square, sum onto zero. -/
def tail (P D : Vec Ideal S16384x3 .f32) (M : (⟨S8192, .i32⟩ : BufTy).Contents (Elt Ideal)) : Vec Ideal S_ .f32 :=
  Host.reduceAdd (F := Ideal)
    (mulf (subf (Host.gather gather_S16384x3_S8192x1_S8192x3_1_0_n_n_0_1_13 P (rows M))
                (Host.gather gather_S16384x3_S8192x1_S8192x3_1_0_n_n_0_1_13 D (rows M)))
          (subf (Host.gather gather_S16384x3_S8192x1_S8192x3_1_0_n_n_0_1_13 P (rows M))
                (Host.gather gather_S16384x3_S8192x1_S8192x3_1_0_n_n_0_1_13 D (rows M))))
    (constant (F := Ideal) S_ .f32 0x00000000#32) reducesTo_S8192x3_S_d0_1 h_S_

theorem tail_congr {P P' D D' : Vec Ideal S16384x3 .f32} {M M' : (⟨S8192, .i32⟩ : BufTy).Contents (Elt Ideal)}
    (hP : P = P') (hD : D = D') (hM : M = M') : tail P D M = tail P' D' M' := by
  subst hP hD hM; rfl

/-- The host line before the grid: the transposed vector array. -/
theorem v0_eq (c : Dev nD) : (V m c main_v0 : Vec Ideal S3x16384 .f32)
    = transpose S3x16384 [1, 0] (m ((c : Thread nD τ).loc main_arg0)) transposes_S16384x3_S3x16384_1_0 := by
  show StableHlo.after hostOps0 (fun b => m (c, b)) (Proc.devRef .tc main_v0) = _
  after_results

/-- The transpose at (j, k) reads the array at (k, j). -/
theorem transpose_at (x : Vec Ideal S16384x3 .f32) (j : Fin 3) (k : Fin 16384) :
    transpose S3x16384 [1, 0] x transposes_S16384x3_S3x16384_1_0 (ix2 j k) = x (ix2 k j) :=
  transpose_apply [1, 0] x transposes_S16384x3_S3x16384_1_0 (ix2 j k) (ix2 k j) (fun b => by
    match b with
    | ⟨0, _⟩ => rfl
    | ⟨1, _⟩ => rfl)

/-- So the result array's contents, stated over the arrays the region finds, are the product of the arguments. -/
theorem prodT_eq (c : Dev nD) : prodT (V m c main_arg1) (V m c main_v0)
    = MatVecSpec.prod (m ((c : Thread nD τ).loc main_arg1)) (m ((c : Thread nD τ).loc main_arg0)) := by
  rw [V_main_arg1, v0_eq]
  funext i
  unfold prodT MatVecSpec.prod
  refine Finset.sum_congr rfl fun k _ => ?_
  congr 1
  exact transpose_at _ (i 1) k

set_option maxHeartbeats 2000000 in
/-- The program's result after the host tail, read off the frame run's post. -/
theorem tail_eq (c : Dev nD) :
    Pipeline.afterTail₀ cfgs (dats m) 0 (V0 m) [hostOps1] c main_v18
      = tail (MatVecSpec.prod (m ((c : Thread nD τ).loc main_arg1)) (m ((c : Thread nD τ).loc main_arg0)))
          (m ((c : Thread nD τ).loc main_arg2)) (m ((c : Thread nD τ).loc main_arg3)) := by
  have hP : Pipeline.withArrays spec0 c (V0 m c) (fun w => (dats m 0 c).arrAt w cfg0.N) (Proc.devRef .tc main_v1)
      = MatVecSpec.prod (m ((c : Thread nD τ).loc main_arg1)) (m ((c : Thread nD τ).loc main_arg0)) :=
    (Pipeline.withArrays_arr spec0 launch0.win.arr_inj c _ _ 2).trans ((final m c).trans (prodT_eq m c))
  have hD : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have hM : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v18) = _
  after_results
  exact tail_congr hP hD hM

/-- The run, read: the result at the tail of the product of the arguments, the arguments unchanged. -/
theorem run : θ_run defs (onTc (τ := τ) (main (F := Ideal))) ⟨m, fun _ => 0, ρ⟩ fun r => ∀ c : Dev nD,
      r.2.mem ((c.tc : Thread nD τ).loc main_v18)
        = tail (MatVecSpec.prod (m ((c.tc : Thread nD τ).loc main_arg1)) (m ((c.tc : Thread nD τ).loc main_arg0)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.ReferenceValue.lean ====
/-
  The idealized reference's run, read as a value: the same tail of operations applied to the same product.

  The reference computes `A X` by one `dot_general` contracting the matrix's columns with the vector array's rows;
  on the extended reals that is Σ_{k < 16384} A (i₀, k) · X (k, i₁), the specification's product. What follows it is,
  operation for operation and literal for literal, the kernel program's host tail: wrap negative indices by 16384,
  gather the rows of the product and of the third argument, subtract, square, sum onto zero.
-/
import proofs.«163676_j62929860821305_2_alg».proof.Proof.Gen.ReferenceIdeal.Read
import proofs.«163676_j62929860821305_2_alg».proof.Proof.MatVecSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The index vector with its negative entries wrapped (`i < 0 ? i + 16384 : i`), as a [8192, 1] column of row
    numbers. -/
def rows (M : (⟨S8192, .i32⟩ : BufTy).Contents (Elt Ideal)) : (⟨S8192x1, .i32⟩ : BufTy).Contents (Elt Ideal) :=
  broadcastInDim S8192x1 ![0] bcast_S8192_S8192x1_0
    (select (cmpi .slt M (broadcastInDim S8192 ![] bcast_S_S8192 (constantI S_ 32 0#32)))
      (addi M (broadcastInDim S8192 ![] bcast_S_S8192 (constantI S_ 32 16384#32))) M)

/-- Everything after the product `P`: gather the indexed rows of `P` and of `D`, subtract, square, sum onto zero. -/
def tail (P D : Vec Ideal S16384x3 .f32) (M : (⟨S8192, .i32⟩ : BufTy).Contents (Elt Ideal)) : Vec Ideal S_ .f32 :=
  Host.reduceAdd (F := Ideal)
    (mulf (subf (Host.gather gather_S16384x3_S8192x1_S8192x3_1_0_n_n_0_1_13 P (rows M))
                (Host.gather gather_S16384x3_S8192x1_S8192x3_1_0_n_n_0_1_13 D (rows M)))
          (subf (Host.gather gather_S16384x3_S8192x1_S8192x3_1_0_n_n_0_1_13 P (rows M))
                (Host.gather gather_S16384x3_S8192x1_S8192x3_1_0_n_n_0_1_13 D (rows M))))
    (constant (F := Ideal) S_ .f32 0x00000000#32) reducesTo_S8192x3_S_d0_1 h_S_

/-- The reference's `dot_general`, on the extended reals, is the product of its operands. -/
theorem dot_eq_prod (x0 : (⟨S16384x3, .f32⟩ : BufTy).Contents (Elt Ideal))
    (x1 : (⟨S16384x16384, .f32⟩ : BufTy).Contents (Elt Ideal)) :
    Read.val_main_v0 (F := Ideal) x0 x1 = MatVecSpec.prod x1 x0 := by
  funext i
  refine (Read.val_main_v0_apply x0 x1 i).trans ?_
  unfold MatVecSpec.prod
  refine Finset.sum_congr rfl fun k _ => ?_
  have el : Read.lidx_main_v0 i k = ix2 (i 0) k := funext fun a => by
    match a with
    | ⟨0, _⟩ => rfl
    | ⟨1, _⟩ => rfl
  have er : Read.ridx_main_v0 i k = ix2 k (i 1) := funext fun a => by
    match a with
    | ⟨0, _⟩ => rfl
    | ⟨1, _⟩ => rfl
  rw [el, er]
  rfl

/-- The term the reference's run ends at is the tail applied to the product of its arguments. -/
theorem result_eq (x0 : (⟨S16384x3, .f32⟩ : BufTy).Contents (Elt Ideal))
    (x1 : (⟨S16384x16384, .f32⟩ : BufTy).Contents (Elt Ideal)) (x2 : (⟨S16384x3, .f32⟩ : BufTy).Contents (Elt Ideal))
    (x3 : (⟨S8192, .i32⟩ : BufTy).Contents (Elt Ideal)) :
    Read.val_main_v17 (F := Ideal) x0 x1 x2 x3 = tail (MatVecSpec.prod x1 x0) x2 x3 := by
  rw [← dot_eq_prod]
  rfl

end Cert.ReferenceIdeal.RefValue

end
-- ==== Proof.lean ====
/-
  The certificate of a masked Laplacian loss: for a [16384, 16384] matrix `A`, [16384, 3] arrays `X` and `D` and an
  index vector `M` of 8192 row numbers,
      loss = Σ_{s < 8192, j < 3} ( (A X) (row s, j) − D (row s, j) )²,   row s = M s, or M s + 16384 where M s < 0.

  The kernel program transposes `X` on the host, computes `A X` on a grid of 64 points — point `t` produces rows
  256 t … 256 t + 255, accumulating the contraction over the 16384 columns in eight chunks of 2048, each chunk a
  bf16 matrix product into a zero accumulator — and finishes on the host with the gather, the difference, the
  square and the sum. The reference computes `A X` by one `dot_general` and finishes with the same operations.

  On the extended reals rounding to bf16 is the identity, a product into a zero accumulator is the plain sum of
  products, and the eight chunk sums added onto a zero are the one sum over all 16384 columns: regrouping a finite
  sum uses only that addition is commutative and associative, so no entry has to be finite and the precondition is
  never opened. Both programs therefore end at the SAME function (`tail`) of the SAME product
  (`MatVecSpec.prod`) of arguments that agree.

    frames      — the two kernel programs' frames are the generated ones; the reference's is its generated run with
                  the result dropped.
    preserves   — the idealization rewrote nothing: `True`.
    algebraic   — the kernel's run (Proof/KernelRun.lean, over Proof/ArrayValue.lean, Proof/BlockValue.lean and
                  Proof/BlockPiece.lean) and the reference's (Proof/ReferenceValue.lean), both posted at
                  `tail (prod A X) D M`.
-/
import proofs.«163676_j62929860821305_2_alg».proof.Defs
import proofs.«163676_j62929860821305_2_alg».proof.Proof.Gen.Kernel
import proofs.«163676_j62929860821305_2_alg».proof.Proof.Gen.Kernel.Skeleton
import proofs.«163676_j62929860821305_2_alg».proof.Proof.Gen.Kernel.Launch
import proofs.«163676_j62929860821305_2_alg».proof.Proof.Gen.Kernel.Points
import proofs.«163676_j62929860821305_2_alg».proof.Proof.Gen.Kernel.Frame
import proofs.«163676_j62929860821305_2_alg».proof.Proof.Gen.KernelIdeal
import proofs.«163676_j62929860821305_2_alg».proof.Proof.Gen.KernelIdeal.Skeleton
import proofs.«163676_j62929860821305_2_alg».proof.Proof.Gen.KernelIdeal.Launch
import proofs.«163676_j62929860821305_2_alg».proof.Proof.Gen.KernelIdeal.Points
import proofs.«163676_j62929860821305_2_alg».proof.Proof.Gen.KernelIdeal.Frame
import proofs.«163676_j62929860821305_2_alg».proof.Proof.Gen.ReferenceIdeal
import proofs.«163676_j62929860821305_2_alg».proof.Proof.Gen.Pre_finite_inputs
import proofs.«163676_j62929860821305_2_alg».proof.Proof.Gen.ReferenceIdeal.Run
import proofs.«163676_j62929860821305_2_alg».proof.Proof.Gen.ReferenceIdeal.Read
import proofs.«163676_j62929860821305_2_alg».proof.Proof.KernelRun
import proofs.«163676_j62929860821305_2_alg».proof.Proof.ReferenceValue
import Idealize.ShloMosaic.Adequacy
import Idealize.ShloMosaic.Init

noncomputable section

namespace Cert.Proof

open Idealize.ShloMosaic Idealize.SL.Sem

/-- The two programs' tails are one function: the same operations with the same literals and dimension records. -/
theorem tails_agree (P D : Vec Ideal Cert.KernelIdeal.S16384x3 .f32)
    (M : (⟨Cert.KernelIdeal.S8192, .i32⟩ : BufTy).Contents (Elt Ideal)) :
    Cert.ReferenceIdeal.RefValue.tail P D M = Cert.KernelIdeal.KernelRun.tail P D M := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's result ends at the tail of the product of its arguments, and the reference's
    at the same tail of the same product of arguments that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v17_eq _ _ _ _).trans
    ((Cert.ReferenceIdeal.RefValue.result_eq _ _ _ _).trans (tails_agree _ _ _))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
